-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S300000x256 : Shape := ⟨2, ![300000, 256]⟩
abbrev S2x300000 : Shape := ⟨2, ![2, 300000]⟩
abbrev S768x256 : Shape := ⟨2, ![768, 256]⟩
abbrev S256 : Shape := ⟨1, ![256]⟩
abbrev S256x256 : Shape := ⟨2, ![256, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S300000x256 : S_.BroadcastsInDim S300000x256 (![] : Fin 0 → Fin S300000x256.rank)
  reducesTo_S300000x256_S_d0_1 : S300000x256.ReducesTo [0, 1] S_
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256x256 .f32) (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S50000x256 .f32) (main_arg1 : FVec F S300000x256 .f32) (main_arg2 : IVec S2x300000 32) (main_arg3 : FVec F S768x256 .f32) (main_arg4 : FVec F S256 .f32) (main_arg5 : FVec F S256x256 .f32) (main_arg6 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S300000x256 .f32 := Host.absf main_arg1
  let main_cst_0 : FVec F S_ .f32 := constant S_ .f32 0x7F800000#32
  let main_v5 : FVec F S300000x256 .f32 := broadcastInDim S300000x256 ![] bcast_S_S300000x256 main_cst_0
  let main_v6 : IVec S300000x256 1 := cmpf .olt main_v4 main_v5
  let main_c_1 : IVec S_ 1 := constantI S_ 1 1#1
  let main_v7 : IVec S_ 1 := (fun x v => Host.reduce IntOp.andi x v reducesTo_S300000x256_S_d0_1 h_S_) main_v6 main_c_1
  let main_v8 : IVec S_ 1 := andi main_v3 main_v7
  let main_v9 : FVec F S768x256 .f32 := Host.absf main_arg3
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S50000x256 : Shape := ⟨2, ![50000, 256]⟩
abbrev S300000x256 : Shape := ⟨2, ![300000, 256]⟩
abbrev S2x300000 : Shape := ⟨2, ![2, 300000]⟩
abbrev S768x256 : Shape := ⟨2, ![768, 256]⟩
abbrev S256 : Shape := ⟨1, ![256]⟩
abbrev S256x256 : Shape := ⟨2, ![256, 256]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S1x256 : Shape := ⟨2, ![1, 256]⟩
abbrev S2000x256 : Shape := ⟨2, ![2000, 256]⟩

abbrev nBuf : Space → Nat
  | .hbm => 38
  | .vmem => 14
  | .smem => 0
  | _ => 0

abbrev bufTy : (tb : Table) → Fin (tcTables nBuf tb) → BufTy
  | .hbm, ⟨0, _⟩ => ⟨S50000x256, .f32⟩
  | .hbm, ⟨1, _⟩ => ⟨S300000x256, .f32⟩
  | .hbm, ⟨2, _⟩ => ⟨S2x300000, .i32⟩
  | .hbm, ⟨3, _⟩ => ⟨S768x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S50000x256, .bf16⟩
  | .hbm, ⟨8, _⟩ => ⟨S1x300000, .i32⟩
  | .hbm, ⟨9, _⟩ => ⟨S300000, .i32⟩
  | .hbm, ⟨10, _⟩ => ⟨S_, .i32⟩
  | .hbm, ⟨11, _⟩ => ⟨S300000, .i32⟩
  | .hbm, ⟨12, _⟩ => ⟨S300000, .i1⟩
  | .hbm, ⟨13, _⟩ => ⟨S_, .i32⟩
  | .hbm, ⟨14, _⟩ => ⟨S300000, .i32⟩
  | .hbm, ⟨15, _⟩ => ⟨S300000, .i32⟩
  | .hbm, ⟨16, _⟩ => ⟨S300000, .i32⟩
  | .hbm, ⟨17, _⟩ => ⟨S300000x1, .i32⟩
  | .hbm, ⟨18, _⟩ => ⟨S300000x256, .bf16⟩
  | .hbm, ⟨19, _⟩ => ⟨S1x300000, .i32⟩
  | .hbm, ⟨20, _⟩ => ⟨S300000, .i32⟩
  | .hbm, ⟨21, _⟩ => ⟨S_, .i32⟩
  | .hbm, ⟨22, _⟩ => ⟨S300000, .i32⟩
  | .hbm, ⟨23, _⟩ => ⟨S300000, .i1⟩
  | .hbm, ⟨24, _⟩ => ⟨S_, .i32⟩
  | .hbm, ⟨25, _⟩ => ⟨S300000, .i32⟩
  | .hbm, ⟨26, _⟩ => ⟨S300000, .i32⟩
  | .hbm, ⟨27, _⟩ => ⟨S300000, .i32⟩
  | .hbm, ⟨28, _⟩ => ⟨S300000x1, .i32⟩
  | .hbm, ⟨29, _⟩ => ⟨S300000x256, .bf16⟩
  | .hbm, ⟨30, _⟩ => ⟨S768x256, .bf16⟩
  | .hbm, ⟨31, _⟩ => ⟨S256x256, .bf16⟩
  | .hbm, ⟨32, _⟩ => ⟨S256x256, .bf16⟩
  | .hbm, ⟨33, _⟩ => ⟨S256x256, .bf16⟩
  | .hbm, ⟨34, _⟩ => ⟨S256x256, .bf16⟩
  | .hbm, ⟨35, _⟩ => ⟨S1x256, .f32⟩
  | .hbm, ⟨36, _⟩ => ⟨S1x256, .f32⟩
  | .hbm, ⟨37, _⟩ => ⟨S300000x256, .f32⟩
  | .local _ .vmem, ⟨0, _⟩ => ⟨S2000x256, .bf16⟩
  | .local _ .vmem, ⟨1, _⟩ => ⟨S2000x256, .bf16⟩
  | .local _ .vmem, ⟨2, _⟩ => ⟨S2000x256, .bf16⟩
  | .local _ .vmem, ⟨3, _⟩ => ⟨S2000x256, .bf16⟩
  | .local _ .vmem, ⟨4, _⟩ => ⟨S2000x256, .f32⟩
  | .local _ .vmem, ⟨5, _⟩ => ⟨S2000x256, .f32⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  slices_S2x300000_S1x300000_1_0 : S2x300000.Slices ![1, 0] S1x300000
  slices_S768x256_S256x256_0_0 : S768x256.Slices ![0, 0] S256x256
  slices_S768x256_S256x256_256_0 : S768x256.Slices ![256, 0] S256x256
  slices_S768x256_S256x256_512_0 : S768x256.Slices ![512, 0] S256x256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  gather_S50000x256_S300000x1_S300000x256_1_0_n_n_0_1_1256_wf : GatherDims.WF S50000x256 S300000x1 S300000x256 [1] [0] [] [0] [] 1 ![1, 256]
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S300000x256.size a
  hwx0_0 : ∀ i : grid0.Coords, EltTy.bits .bf16 = 32 ∨ (Rect.block (s := S300000x256) S2000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S300000x256.size a
  hwx0_1 : ∀ i : grid0.Coords, EltTy.bits .bf16 = 32 ∨ (Rect.block (s := S300000x256) S2000x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S300000x256.size a
  hwx0_2 : ∀ i : grid0.Coords, EltTy.bits .f32 = 32 ∨ (Rect.block (s := S300000x256) S2000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x256.size a ≤ S300000x256.size a
  hwx0_9 : ∀ i : grid0.Coords, EltTy.bits .f32 = 32 ∨ (Rect.block (s := S300000x256) S2000x256.size (cc0_transform_9 i) (hinb0_9 i)).WholeWords (EltTy.packing .f32)

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v9) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S2000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x256 : Shape := ⟨2, ![50000, 256]⟩
abbrev S300000x256 : Shape := ⟨2, ![300000, 256]⟩
abbrev S2x300000 : Shape := ⟨2, ![2, 300000]⟩
abbrev S768x256 : Shape := ⟨2, ![768, 256]⟩
abbrev S256 : Shape := ⟨1, ![256]⟩
abbrev S256x256 : Shape := ⟨2, ![256, 256]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x768 : Shape := ⟨2, ![300000, 768]⟩
abbrev S1x256 : Shape := ⟨2, ![1, 256]⟩

abbrev nBuf : Space → Nat
  | .hbm => 41
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S300000x256, .f32⟩
  | .hbm, ⟨2, _⟩ => ⟨S2x300000, .i32⟩
  | .hbm, ⟨3, _⟩ => ⟨S768x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x300000, .i32⟩
  | .hbm, ⟨8, _⟩ => ⟨S300000, .i32⟩
  | .hbm, ⟨9, _⟩ => ⟨S_, .i32⟩
  | .hbm, ⟨10, _⟩ => ⟨S300000, .i32⟩
  | .hbm, ⟨11, _⟩ => ⟨S300000, .i1⟩
  | .hbm, ⟨12, _⟩ => ⟨S_, .i32⟩
  | .hbm, ⟨13, _⟩ => ⟨S300000, .i32⟩
  | .hbm, ⟨14, _⟩ => ⟨S300000, .i32⟩
  | .hbm, ⟨15, _⟩ => ⟨S300000, .i32⟩
  | .hbm, ⟨16, _⟩ => ⟨S300000x1, .i32⟩
  | .hbm, ⟨17, _⟩ => ⟨S300000x256, .f32⟩
  | .hbm, ⟨18, _⟩ => ⟨S1x300000, .i32⟩
  | .hbm, ⟨19, _⟩ => ⟨S300000, .i32⟩
  | .hbm, ⟨20, _⟩ => ⟨S_, .i32⟩
  | .hbm, ⟨21, _⟩ => ⟨S300000, .i32⟩
  | .hbm, ⟨22, _⟩ => ⟨S300000, .i1⟩
  | .hbm, ⟨23, _⟩ => ⟨S_, .i32⟩
  | .hbm, ⟨24, _⟩ => ⟨S300000, .i32⟩
  | .hbm, ⟨25, _⟩ => ⟨S300000, .i32⟩
  | .hbm, ⟨26, _⟩ => ⟨S300000, .i32⟩
  | .hbm, ⟨27, _⟩ => ⟨S300000x1, .i32⟩
  | .hbm, ⟨28, _⟩ => ⟨S300000x256, .f32⟩
  | .hbm, ⟨29, _⟩ => ⟨S300000x768, .f32⟩
  | .hbm, ⟨30, _⟩ => ⟨S300000x256, .f32⟩
  | .hbm, ⟨31, _⟩ => ⟨S1x256, .f32⟩
  | .hbm, ⟨32, _⟩ => ⟨S300000x256, .f32⟩
  | .hbm, ⟨33, _⟩ => ⟨S300000x256, .f32⟩
  | .hbm, ⟨34, _⟩ => ⟨S_, .f32⟩
  | .hbm, ⟨35, _⟩ => ⟨S300000x256, .f32⟩
  | .hbm, ⟨36, _⟩ => ⟨S300000x256, .f32⟩
  | .hbm, ⟨37, _⟩ => ⟨S300000x256, .f32⟩
  | .hbm, ⟨38, _⟩ => ⟨S1x256, .f32⟩
  | .hbm, ⟨39, _⟩ => ⟨S300000x256, .f32⟩
  | .hbm, ⟨40, _⟩ => ⟨S300000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  slices_S2x300000_S1x300000_1_0 : S2x300000.Slices ![1, 0] S1x300000
  concatenates_S300000x256_S300000x256_S300000x256_S300000x768_d1 : Shape.Concatenates [S300000x256, S300000x256, S300000x256] S300000x768 1
  bcast_S256_S1x256_1 : S256.BroadcastsInDim S1x256 (![1] : Fin 1 → Fin S1x256.rank)
  bcast_S1x256_S300000x256_0_1 : S1x256.BroadcastsInDim S300000x256 (![0, 1] : Fin 2 → Fin S300000x256.rank)
  bcast_S_S300000x256 : S_.BroadcastsInDim S300000x256 (![] : Fin 0 → Fin S300000x256.rank)
  gather_S50000x256_S300000x1_S300000x256_1_0_n_n_0_1_1256_wf : GatherDims.WF S50000x256 S300000x1 S300000x256 [1] [0] [] [0] [] 1 ![1, 256]
  dot_S300000x768_S768x256_S300000x256_1_0_0_1_n_n_wf : DotDims.WF S300000x768 S768x256 S300000x256 [1] [0] [0] [1] [] []
  dot_S300000x256_S256x256_S300000x256_1_0_0_1_n_n_wf : DotDims.WF S300000x256 S256x256 S300000x256 [1] [0] [0] [1] [] []

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def dot_S300000x768_S768x256_S300000x256_1_0_0_1_n_n : DotDims S300000x768 S768x256 S300000x256 where
  lhsContracting := [1]
  rhsContracting := [0]
  lhsNonContracting := [0]
  rhsNonContracting := [1]
  lhsBatch := []
  rhsBatch := []
  wf := dot_S300000x768_S768x256_S300000x256_1_0_0_1_n_n_wf
def dot_S300000x256_S256x256_S300000x256_1_0_0_1_n_n : DotDims S300000x256 S256x256 S300000x256 where
  lhsContracting := [1]
  rhsContracting := [0]
  lhsNonContracting := [0]
  rhsNonContracting := [1]
  lhsBatch := []
  rhsBatch := []
  wf := dot_S300000x256_S256x256_S300000x256_1_0_0_1_n_n_wf

class Facts : Prop extends Facts₀ where

variable [Facts]
-- ==== Proof.EdgeMlp.lean ====
/-
  The edge update of a message-passing layer, as a function of arrays over the extended reals.

  Every edge `r` carries three feature rows of width 256: its source node's `s r`, its destination node's `d r` and
  its own `e r`.  Side by side they form one row of width 768 that goes through a perceptron with one rectified
  hidden layer,

      out r q = ∑ k, max (∑ j, [s r | d r | e r] j * W1 j k + b1 k) 0 * W2 k q + b2 q .

  A sum over the 768 columns is the sum over columns 0–255, plus the sum over columns 256–511, plus the sum over
  columns 512–767 (`sum_three_blocks`: a finite sum over a disjoint union, valid in any commutative monoid, so also
  where a term is infinite).  With the weight matrix cut into the three blocks of 256 rows that meet those columns,
  the hidden layer is therefore three products of width 256 added up (`hid`), which is the form `rowMlp` is stated in;
  `cat_sum` is the step back to the one product of width 768.
-/
import Idealize.ShloMosaic.PureOps.Ideal
import Idealize.ShloMosaic.Lib.ValueIdx

noncomputable section

open scoped BigOperators

namespace Cert.EdgeMlp

open Idealize.ShloMosaic Idealize.ShloMosaic.ValueIdx

/-- A matrix of extended reals with `a` rows and `b` columns. -/
abbrev Mat (a b : ℕ) : Type := (⟨2, ![a, b]⟩ : Shape).Idx → EReal

/-- A vector of extended reals of length `a`. -/
abbrev Vect (a : ℕ) : Type := (⟨1, ![a]⟩ : Shape).Idx → EReal

/-! ## A sum over 768 columns, block by block -/

/-- A sum over 768 positions is the sum over positions 0–255, plus that over 256–511, plus that over 512–767. -/
theorem sum_three_blocks {M : Type} [AddCommMonoid M] (f : Fin 768 → M) :
    ∑ k : Fin 768, f k
      = ((∑ j : Fin 256, f ⟨0 + j.val, by have := j.isLt; omega⟩) + ∑ j : Fin 256, f ⟨256 + j.val, by have := j.isLt; omega⟩)
        + ∑ j : Fin 256, f ⟨512 + j.val, by have := j.isLt; omega⟩ := by
  have h1 : ∑ k : Fin (512 + 256), f k
      = ∑ i : Fin 512, f (Fin.castAdd 256 i) + ∑ j : Fin 256, f (Fin.natAdd 512 j) :=
    Fin.sum_univ_add (a := 512) (b := 256) f
  have h2 : ∑ i : Fin (256 + 256), f (Fin.castAdd 256 i)
      = ∑ j : Fin 256, f (Fin.castAdd 256 (Fin.castAdd 256 j)) + ∑ j : Fin 256, f (Fin.castAdd 256 (Fin.natAdd 256 j)) :=
    Fin.sum_univ_add (a := 256) (b := 256) fun i : Fin (256 + 256) => f (Fin.castAdd 256 i)
  refine h1.trans ?_
  refine congrArg₂ (· + ·) (h2.trans ?_) (Finset.sum_congr rfl fun j _ => congrArg f (Fin.ext rfl))
  exact congrArg₂ (· + ·) (Finset.sum_congr rfl fun j _ => congrArg f (Fin.ext (Nat.zero_add _).symm))
    (Finset.sum_congr rfl fun j _ => congrArg f (Fin.ext rfl))

/-! ## The perceptron, row by row -/

/-- What the rectifier compares with: the extended real the all-zero 32-bit word encodes. -/
abbrev floor0 : EReal := Ideal.ofBits .f32 0x00000000#32

/-- The hidden unit `k` of edge `r` before the rectifier: the three feature rows against the three blocks of first-layer
    weights, added up in the order source, destination, edge, then the bias (a one-row matrix). -/
def hid {n : ℕ} (s d e : Mat n 256) (wa wb wc : Mat 256 256) (b1 : Mat 1 256) (r : Fin n) (k : Fin 256) : EReal :=
  ((∑ j : Fin 256, s (ix2 r j) * wa (ix2 j k)) + ∑ j : Fin 256, d (ix2 r j) * wb (ix2 j k))
    + (∑ j : Fin 256, e (ix2 r j) * wc (ix2 j k)) + b1 (ix2 (0 : Fin 1) k)

/-- Output `q` of edge `r`: the rectified hidden layer against the second layer's weights, plus its bias. -/
def outAt {n : ℕ} (s d e : Mat n 256) (wa wb wc : Mat 256 256) (b1 : Mat 1 256) (w2 : Mat 256 256) (b2 : Mat 1 256)
    (r : Fin n) (q : Fin 256) : EReal :=
  (∑ k : Fin 256, max (hid s d e wa wb wc b1 r k) floor0 * w2 (ix2 k q)) + b2 (ix2 (0 : Fin 1) q)

/-- The perceptron applied to each of `n` edges. -/
def rowMlp {n : ℕ} (s d e : Mat n 256) (wa wb wc : Mat 256 256) (b1 : Mat 1 256) (w2 : Mat 256 256) (b2 : Mat 1 256) :
    Mat n 256 :=
  fun i => outAt s d e wa wb wc b1 w2 b2 (i 0) (i 1)

theorem rowMlp_apply {n : ℕ} (s d e : Mat n 256) (wa wb wc : Mat 256 256) (b1 : Mat 1 256) (w2 : Mat 256 256)
    (b2 : Mat 1 256) (r : Fin n) (q : Fin 256) :
    rowMlp s d e wa wb wc b1 w2 b2 (ix2 r q) = outAt s d e wa wb wc b1 w2 b2 r q := rfl

/-- An edge's output depends on its own three feature rows only: if rows `p` of `s`, `d`, `e` are rows `R` of `S`,
    `D`, `E` (a run of rows cut from a longer array), the outputs agree. -/
theorem outAt_rows {n N : ℕ} (s d e : Mat n 256) (S D E : Mat N 256) (wa wb wc : Mat 256 256) (b1 : Mat 1 256)
    (w2 : Mat 256 256) (b2 : Mat 1 256) (p : Fin n) (R : Fin N) (q : Fin 256)
    (hs : ∀ j : Fin 256, s (ix2 p j) = S (ix2 R j)) (hd : ∀ j : Fin 256, d (ix2 p j) = D (ix2 R j))
    (he : ∀ j : Fin 256, e (ix2 p j) = E (ix2 R j)) :
    outAt s d e wa wb wc b1 w2 b2 p q = outAt S D E wa wb wc b1 w2 b2 R q := by
  unfold outAt hid
  simp only [hs, hd, he]

/-! ## The whole weight matrix and the biases as vectors -/

/-- The 256 rows of the first layer's weights from row `o` on. -/
def rowsFrom (o : ℕ) (ho : o + 256 ≤ 768) (W1 : Mat 768 256) : Mat 256 256 :=
  fun i => W1 (ix2 ⟨o + (i 0).val, by have := idx2_lt0 i; omega⟩ (i 1))

theorem rowsFrom_apply (o : ℕ) (ho : o + 256 ≤ 768) (W1 : Mat 768 256) (j k : Fin 256) :
    rowsFrom o ho W1 (ix2 j k) = W1 (ix2 ⟨o + j.val, by have := j.isLt; omega⟩ k) := rfl

/-- A vector as a matrix of one row. -/
def asRow (b : Vect 256) : Mat 1 256 := fun i => b (ix1 (i 1))

theorem asRow_apply (b : Vect 256) (u : Fin 1) (k : Fin 256) : asRow b (ix2 u k) = b (ix1 k) := rfl

/-- THE EDGE UPDATE as one function of the gathered node rows `src`, `dst`, the edge rows `xe` and the parameters. -/
def edgeMlp {n : ℕ} (src dst xe : Mat n 256) (W1 : Mat 768 256) (b1 : Vect 256) (W2 : Mat 256 256) (b2 : Vect 256) :
    Mat n 256 :=
  rowMlp src dst xe (rowsFrom 0 (by omega) W1) (rowsFrom 256 (by omega) W1) (rowsFrom 512 (by omega) W1) (asRow b1) W2 (asRow b2)

/-- The one product of width 768: if `cat` is `src`, `dst`, `xe` side by side, its row against the whole weight matrix
    is the three products of width 256 added up. -/
theorem cat_sum {n : ℕ} (src dst xe : Mat n 256) (cat : Mat n 768) (W1 : Mat 768 256) (r : Fin n) (k : Fin 256)
    (h0 : ∀ j : Fin 256, cat (ix2 r ⟨0 + j.val, by have := j.isLt; omega⟩) = src (ix2 r j))
    (h1 : ∀ j : Fin 256, cat (ix2 r ⟨256 + j.val, by have := j.isLt; omega⟩) = dst (ix2 r j))
    (h2 : ∀ j : Fin 256, cat (ix2 r ⟨512 + j.val, by have := j.isLt; omega⟩) = xe (ix2 r j)) :
    ∑ j : Fin 768, cat (ix2 r j) * W1 (ix2 j k)
      = ((∑ j : Fin 256, src (ix2 r j) * rowsFrom 0 (by omega) W1 (ix2 j k))
          + ∑ j : Fin 256, dst (ix2 r j) * rowsFrom 256 (by omega) W1 (ix2 j k))
        + ∑ j : Fin 256, xe (ix2 r j) * rowsFrom 512 (by omega) W1 (ix2 j k) := by
  rw [sum_three_blocks fun j : Fin 768 => cat (ix2 r j) * W1 (ix2 j k)]
  simp only [h0, h1, h2, rowsFrom_apply]

end Cert.EdgeMlp

end
-- ==== Proof.Payload.lean ====
/-
  What the kernel's body stores, as a function of what it loads.

  The body loads a block of 2000 source rows, 2000 destination rows and 2000 edge rows, the three 256 × 256 blocks of
  first-layer weights, the two biases as one-row matrices and the second-layer weights, and stores

      ((s · wa + d · wb) + e · wc + b1 broadcast over the rows), rectified, times w2, plus b2 broadcast over the rows.

  Over the extended reals a change of float format is the identity and a matrix product accumulated into zero is the
  plain sum over the contracted axis (`matmul_rows`), so the stored block is the row-wise perceptron of the loaded
  blocks (`payload_eq`).
-/
import proofs.«105124_j45509473468801_2_alg».proof.Proof.Gen.KernelIdeal.Skeleton
import proofs.«105124_j45509473468801_2_alg».proof.Proof.EdgeMlp
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.EdgeMlp

/-! ## One matrix product of the body at an entry -/

theorem lhs_row (i : S2000x256.Idx) (u : dot_S2000x256_S256x256_S2000x256_1_0_0_1_n_n.contr.Idx) : (dot_S2000x256_S256x256_S2000x256_1_0_0_1_n_n.lhsIdx i u 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl

theorem rhs_col (i : S2000x256.Idx) (u : dot_S2000x256_S256x256_S2000x256_1_0_0_1_n_n.contr.Idx) : (dot_S2000x256_S256x256_S2000x256_1_0_0_1_n_n.rhsIdx i u 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A [2000, 256] × [256, 256] product accumulated into zero, read at (p, q): row p of the left operand against
    column q of the right one. -/
theorem matmul_rows {φ₁ φ₂ : FTy} (A : FVec Ideal S2000x256 φ₁) (B : FVec Ideal S256x256 φ₂) (p : Fin 2000) (q : Fin 256) :
    matmul dot_S2000x256_S256x256_S2000x256_1_0_0_1_n_n none A B (constant (F := Ideal) S2000x256 .f32 0x00000000#32) (ix2 p q)
      = ∑ k : Fin 256, A (ix2 p k) * B (ix2 k q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs_row _ _
    | ⟨1, _⟩ => exact (dot_S2000x256_S256x256_S2000x256_1_0_0_1_n_n.lhsIdx_val_of_single rfl _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (dot_S2000x256_S256x256_S2000x256_1_0_0_1_n_n.rhsIdx_val_of_single rfl _ _).trans hk
    | ⟨1, _⟩ => exact rhs_col _ _)
  rw [el, er]

/-! ## The stored block -/

/-- The body's stored block is the row-wise perceptron of its loaded blocks. -/
theorem payload_eq (x0 x1 : Vec Ideal S2000x256 .bf16) (x2 : Vec Ideal S2000x256 .f32) (x3 x4 x5 : Vec Ideal S256x256 .bf16)
    (x6 : Vec Ideal S1x256 .f32) (x7 : Vec Ideal S256x256 .bf16) (x8 : Vec Ideal S1x256 .f32) :
    k0_pay1 (F := Ideal) x0 x1 x2 x3 x4 x5 x6 x7 x8 = rowMlp x0 x1 x2 x3 x4 x5 x6 x7 x8 := by
  funext y
  obtain ⟨p, q, rfl⟩ : ∃ (p : Fin 2000) (q : Fin 256), y = ix2 p q := ⟨y 0, y 1, eq_ix2 y⟩
  rw [rowMlp_apply]
  unfold k0_pay1
  simp only [shapeCast_self]
  unfold outAt
  rw [addf_apply, matmul_rows, broadcastTo_1b_ab_apply]
  refine congrArg₂ (· + ·) (Finset.sum_congr rfl fun k _ => congrArg (· * x7 (ix2 k q)) ?_) rfl
  rw [truncf_apply, maximumf_apply, broadcast_apply]
  refine congrArg₂ max ?_ rfl
  unfold hid
  rw [addf_apply, addf_apply, addf_apply, matmul_rows, matmul_rows, matmul_rows, broadcastTo_1b_ab_apply]
  rfl

end Cert.KernelIdeal.Body

end
-- ==== Proof.Tiles.lean ====
/-
  From the blocks the grid points write to the whole result array.

  Grid point `t` of 150 stages rows 2000 t … 2000 t + 1999 of the source, destination and edge arrays, the weight
  blocks and biases whole, and writes back rows 2000 t … 2000 t + 1999 of the result.  An edge's output depends on
  that edge's rows only, so what point `t` writes is block `t` of the row-wise perceptron of the whole staged arrays
  (`written_eq`).  Row `r` lies in the block of point `r / 2000`, so the 150 blocks cover the array (`covered`) and the
  array ends as that function (`result_eq`).
-/
import proofs.«105124_j45509473468801_2_alg».proof.Proof.Gen.KernelIdeal.Value
import proofs.«105124_j45509473468801_2_alg».proof.Proof.Payload
import Idealize.ShloMosaic.Lib.Pipeline.Value
import Idealize.ShloMosaic.Lib.ValueIdx

noncomputable section

namespace Cert.KernelIdeal.Tiles

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.EdgeMlp

variable (m : (ℓ : Loc nD τ sig) → Buf (Elt Ideal) ℓ) (ρ : Dev nD → PrngReg)

theorem origin : (![0, 0] : Fin 2 → Nat) = fun _ => 0 := funext fun a => by fin_cases a <;> rfl

/-- The block index of every window at every grid point: the four row-blocked windows follow the point, the five
    whole-array windows stay at the origin (decided over the 150 points). -/
theorem block_index : ∀ t : Fin cfg0.N,
    (win0_9.index t (0 : Fin 2) = t.val ∧ win0_9.index t (1 : Fin 2) = 0)
    ∧ (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- The row-wise perceptron of the nine staged arrays, whole. -/
def staged (c : Dev nD) : Mat 300000 256 :=
  rowMlp (n := 300000) (V m c main_v9 : S300000x256.Idx → EReal) (V m c main_v18 : S300000x256.Idx → EReal)
    (V m c main_arg1 : S300000x256.Idx → EReal) (V m c main_v20 : S256x256.Idx → EReal)
    (V m c main_v21 : S256x256.Idx → EReal) (V m c main_v22 : S256x256.Idx → EReal) (V m c main_v24 : S1x256.Idx → EReal)
    (V m c main_v23 : S256x256.Idx → EReal) (V m c main_v25 : S1x256.Idx → EReal)

/-! ## The whole-array windows' blocks are the arrays -/

theorem blk_wa (c : Dev nD) (t : Fin cfg0.N) : (iblk m c 3 t : S256x256.Idx → EReal) = V m c main_v20 := by
  obtain ⟨-, -, -, -, ⟨e0, e1⟩, -⟩ := block_index t
  funext y
  show V m c main_v20 (((cfg0.win 3).blk t).view.emb y) = V m c main_v20 y
  have h : ((cfg0.win 3).blk t).view.emb y = y := by
    funext a; apply Fin.ext
    match a with
    | ⟨0, _⟩ => show win0_3.index t (0 : Fin 2) * 256 + 1 * (y 0).val = (y 0).val; rw [e0]; omega
    | ⟨1, _⟩ => show win0_3.index t (1 : Fin 2) * 256 + 1 * (y 1).val = (y 1).val; rw [e1]; omega
  rw [h]

theorem blk_wb (c : Dev nD) (t : Fin cfg0.N) : (iblk m c 4 t : S256x256.Idx → EReal) = V m c main_v21 := by
  obtain ⟨-, -, -, -, -, ⟨e0, e1⟩, -⟩ := block_index t
  funext y
  show V m c main_v21 (((cfg0.win 4).blk t).view.emb y) = V m c main_v21 y
  have h : ((cfg0.win 4).blk t).view.emb y = y := by
    funext a; apply Fin.ext
    match a with
    | ⟨0, _⟩ => show win0_4.index t (0 : Fin 2) * 256 + 1 * (y 0).val = (y 0).val; rw [e0]; omega
    | ⟨1, _⟩ => show win0_4.index t (1 : Fin 2) * 256 + 1 * (y 1).val = (y 1).val; rw [e1]; omega
  rw [h]

theorem blk_wc (c : Dev nD) (t : Fin cfg0.N) : (iblk m c 5 t : S256x256.Idx → EReal) = V m c main_v22 := by
  obtain ⟨-, -, -, -, -, -, ⟨e0, e1⟩, -⟩ := block_index t
  funext y
  show V m c main_v22 (((cfg0.win 5).blk t).view.emb y) = V m c main_v22 y
  have h : ((cfg0.win 5).blk t).view.emb y = y := by
    funext a; apply Fin.ext
    match a with
    | ⟨0, _⟩ => show win0_5.index t (0 : Fin 2) * 256 + 1 * (y 0).val = (y 0).val; rw [e0]; omega
    | ⟨1, _⟩ => show win0_5.index t (1 : Fin 2) * 256 + 1 * (y 1).val = (y 1).val; rw [e1]; omega
  rw [h]

theorem blk_b1 (c : Dev nD) (t : Fin cfg0.N) : (iblk m c 6 t : S1x256.Idx → EReal) = V m c main_v24 := by
  obtain ⟨-, -, -, -, -, -, -, ⟨e0, e1⟩, -⟩ := block_index t
  funext y
  show V m c main_v24 (((cfg0.win 6).blk t).view.emb y) = V m c main_v24 y
  have h : ((cfg0.win 6).blk t).view.emb y = y := by
    funext a; apply Fin.ext
    match a with
    | ⟨0, _⟩ => show win0_6.index t (0 : Fin 2) * 1 + 1 * (y 0).val = (y 0).val; rw [e0]; omega
    | ⟨1, _⟩ => show win0_6.index t (1 : Fin 2) * 256 + 1 * (y 1).val = (y 1).val; rw [e1]; omega
  rw [h]

theorem blk_w2 (c : Dev nD) (t : Fin cfg0.N) : (iblk m c 7 t : S256x256.Idx → EReal) = V m c main_v23 := by
  obtain ⟨-, -, -, -, -, -, -, -, ⟨e0, e1⟩, -⟩ := block_index t
  funext y
  show V m c main_v23 (((cfg0.win 7).blk t).view.emb y) = V m c main_v23 y
  have h : ((cfg0.win 7).blk t).view.emb y = y := by
    funext a; apply Fin.ext
    match a with
    | ⟨0, _⟩ => show win0_7.index t (0 : Fin 2) * 256 + 1 * (y 0).val = (y 0).val; rw [e0]; omega
    | ⟨1, _⟩ => show win0_7.index t (1 : Fin 2) * 256 + 1 * (y 1).val = (y 1).val; rw [e1]; omega
  rw [h]

theorem blk_b2 (c : Dev nD) (t : Fin cfg0.N) : (iblk m c 8 t : S1x256.Idx → EReal) = V m c main_v25 := by
  obtain ⟨-, -, -, -, -, -, -, -, -, e0, e1⟩ := block_index t
  funext y
  show V m c main_v25 (((cfg0.win 8).blk t).view.emb y) = V m c main_v25 y
  have h : ((cfg0.win 8).blk t).view.emb y = y := by
    funext a; apply Fin.ext
    match a with
    | ⟨0, _⟩ => show win0_8.index t (0 : Fin 2) * 1 + 1 * (y 0).val = (y 0).val; rw [e0]; omega
    | ⟨1, _⟩ => show win0_8.index t (1 : Fin 2) * 256 + 1 * (y 1).val = (y 1).val; rw [e1]; omega
  rw [h]

/-! ## What a point writes back -/

/-- Point `t` writes back block `t` of the row-wise perceptron of the whole staged arrays. -/
theorem written_eq (c : Dev nD) (t : Fin cfg0.N) :
    (dats m 0 c).flushed 9 t = ((cfg0.win 9).blk t).view.read (Elt Ideal) (staged m c) := by
  rw [flushed9]
  unfold out0_9
  rw [View.canon_unit_zero origin]
  simp only [View.ld_unit_zero (S := S2000x256) origin, View.ld_unit_zero (S := S256x256) origin,
    View.ld_unit_zero (S := S1x256) origin]
  rw [Body.payload_eq, blk_wa, blk_wb, blk_wc, blk_b1, blk_w2, blk_b2]
  obtain ⟨⟨o0, o1⟩, ⟨s0, s1⟩, ⟨d0, d1⟩, ⟨x0, x1⟩, -⟩ := block_index t
  funext y
  obtain ⟨p, q, rfl⟩ : ∃ (p : Fin 2000) (q : Fin 256), y = ix2 p q := ⟨y 0, y 1, eq_ix2 y⟩
  have hN : cfg0.N = 150 := N_0
  have hR : t.val * 2000 + p.val < 300000 := by have := t.isLt; have := p.isLt; omega
  -- entry (p, q) of block t is entry (2000 t + p, q) of the array
  have hI : ((cfg0.win 9).blk t).view.emb (ix2 p q) = (ix2 (⟨t.val * 2000 + p.val, hR⟩ : Fin 300000) q : S300000x256.Idx) := by
    funext a; apply Fin.ext
    match a with
    | ⟨0, _⟩ => show win0_9.index t (0 : Fin 2) * 2000 + 1 * p.val = t.val * 2000 + p.val; rw [o0]; omega
    | ⟨1, _⟩ => show win0_9.index t (1 : Fin 2) * 256 + 1 * q.val = q.val; rw [o1]; omega
  show rowMlp _ _ _ _ _ _ _ _ _ (ix2 p q) = staged m c (((cfg0.win 9).blk t).view.emb (ix2 p q))
  rw [hI]
  unfold staged
  rw [rowMlp_apply, rowMlp_apply]
  refine outAt_rows _ _ _ _ _ _ _ _ _ _ _ _ p ⟨t.val * 2000 + p.val, hR⟩ q (fun j => ?_) (fun j => ?_) (fun j => ?_)
  · show V m c main_v9 (((cfg0.win 0).blk t).view.emb (ix2 p j)) = V m c main_v9 (ix2 (⟨t.val * 2000 + p.val, hR⟩ : Fin 300000) j : S300000x256.Idx)
    have h : ((cfg0.win 0).blk t).view.emb (ix2 p j) = (ix2 (⟨t.val * 2000 + p.val, hR⟩ : Fin 300000) j : S300000x256.Idx) := by
      funext a; apply Fin.ext
      match a with
      | ⟨0, _⟩ => show win0_0.index t (0 : Fin 2) * 2000 + 1 * p.val = t.val * 2000 + p.val; rw [s0]; omega
      | ⟨1, _⟩ => show win0_0.index t (1 : Fin 2) * 256 + 1 * j.val = j.val; rw [s1]; omega
    rw [h]
  · show V m c main_v18 (((cfg0.win 1).blk t).view.emb (ix2 p j)) = V m c main_v18 (ix2 (⟨t.val * 2000 + p.val, hR⟩ : Fin 300000) j : S300000x256.Idx)
    have h : ((cfg0.win 1).blk t).view.emb (ix2 p j) = (ix2 (⟨t.val * 2000 + p.val, hR⟩ : Fin 300000) j : S300000x256.Idx) := by
      funext a; apply Fin.ext
      match a with
      | ⟨0, _⟩ => show win0_1.index t (0 : Fin 2) * 2000 + 1 * p.val = t.val * 2000 + p.val; rw [d0]; omega
      | ⟨1, _⟩ => show win0_1.index t (1 : Fin 2) * 256 + 1 * j.val = j.val; rw [d1]; omega
    rw [h]
  · show V m c main_arg1 (((cfg0.win 2).blk t).view.emb (ix2 p j)) = V m c main_arg1 (ix2 (⟨t.val * 2000 + p.val, hR⟩ : Fin 300000) j : S300000x256.Idx)
    have h : ((cfg0.win 2).blk t).view.emb (ix2 p j) = (ix2 (⟨t.val * 2000 + p.val, hR⟩ : Fin 300000) j : S300000x256.Idx) := by
      funext a; apply Fin.ext
      match a with
      | ⟨0, _⟩ => show win0_2.index t (0 : Fin 2) * 2000 + 1 * p.val = t.val * 2000 + p.val; rw [x0]; omega
      | ⟨1, _⟩ => show win0_2.index t (1 : Fin 2) * 256 + 1 * j.val = j.val; rw [x1]; omega
    rw [h]

/-! ## The blocks cover the array -/

/-- An entry lies in point `t`'s block iff each coordinate lies in the block's range on its axis. -/
theorem mem_block (t : Fin cfg0.N) (i : S300000x256.Idx) :
    i ∈ ((cfg0.win 9).blk t).view.set ↔ ∀ a : Fin 2, win0_9.index t a * S2000x256.size a ≤ (i a).val ∧ (i a).val < win0_9.index t a * S2000x256.size a + S2000x256.size a := by
  show i ∈ ((View.whole main_v26).slice (win0_9.rect t)).set ↔ _
  rw [View.set_slice_whole, Rect.mem_set_unit]
  exact Iff.rfl

/-- Row `r` lies in the block of point `r / 2000`. -/
theorem covered (i : S300000x256.Idx) :
    ∃ t : Fin cfg0.N, (cfg0.win 9).flush t = true ∧ i ∈ ((cfg0.win 9).blk t).view.set := by
  have hN : cfg0.N = 150 := N_0
  have hi0 : (i 0).val < 300000 := (i 0).isLt
  have hi1 : (i 1).val < 256 := (i 1).isLt
  have ht : (i 0).val / 2000 < cfg0.N := by rw [hN]; omega
  obtain ⟨⟨o0, o1⟩, -⟩ := block_index ⟨(i 0).val / 2000, ht⟩
  have o0' : win0_9.index ⟨(i 0).val / 2000, ht⟩ (0 : Fin 2) = (i 0).val / 2000 := o0
  refine ⟨⟨(i 0).val / 2000, ht⟩, flush0_9 _, ?_⟩
  rw [mem_block]
  intro a
  match a with
  | ⟨0, _⟩ =>
    show win0_9.index ⟨(i 0).val / 2000, ht⟩ (0 : Fin 2) * 2000 ≤ (i 0).val
      ∧ (i 0).val < win0_9.index ⟨(i 0).val / 2000, ht⟩ (0 : Fin 2) * 2000 + 2000
    rw [o0']; omega
  | ⟨1, _⟩ =>
    show win0_9.index ⟨(i 0).val / 2000, ht⟩ (1 : Fin 2) * 256 ≤ (i 1).val
      ∧ (i 1).val < win0_9.index ⟨(i 0).val / 2000, ht⟩ (1 : Fin 2) * 256 + 256
    rw [o1]; omega

/-- THE RESULT ARRAY after the run: the row-wise perceptron of the whole staged arrays. -/
theorem result_eq (c : Dev nD) : (dats m 0 c).arrAt 9 cfg0.N = staged m c :=
  (dats m 0 c).arrAt_eq_of_cover 9 (staged m c) (fun t _ => written_eq m c t) covered

end Cert.KernelIdeal.Tiles

end
-- ==== Proof.Windows.lean ====
/-
  The arrays the kernel's windows stage, as the host operations before the launch leave them.

  Before the launch the host turns negative node numbers into their positive equivalents, gathers the source and
  the destination rows of every edge from the node table, cuts the first layer's weights into three blocks of 256
  rows, and writes the two biases as one-row matrices; on the way it changes float formats, which over the extended
  reals changes nothing.  The two gathered arrays are, operation for operation, what the reference computes for its
  own two gathers (`staged_src`, `staged_dst`), so they are carried as those two arrays and never opened.  The three
  weight blocks are rows 0–255, 256–511 and 512–767 of the weight matrix (`staged_wa`, `staged_wb`, `staged_wc`), the
  second layer's weights and the edge rows are the arguments themselves, and each bias is the argument as one row.
-/
import proofs.«105124_j45509473468801_2_alg».proof.Proof.Gen.KernelIdeal.Frame
import proofs.«105124_j45509473468801_2_alg».proof.Proof.Gen.ReferenceIdeal.Read
import proofs.«105124_j45509473468801_2_alg».proof.Proof.EdgeMlp
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.Staged

open Cert.KernelIdeal Cert.KernelIdeal.Gen Idealize.ShloMosaic Idealize.ShloMosaic.TcCoe Idealize.SL.Sem
open Idealize.ShloMosaic.StableHlo Idealize.ShloMosaic.ValueIdx Cert.EdgeMlp

variable (m : (ℓ : Loc nD τ sig) → Buf (Elt Ideal) ℓ)

set_option maxHeartbeats 2000000 in
/-- The gathered source rows are the reference's gathered source rows of the same arguments. -/
theorem staged_src (c : Dev nD) :
    (V m c main_v9 : S300000x256.Idx → EReal)
      = Cert.ReferenceIdeal.Read.val_main_v8 (F := Ideal) (m ((c : Thread nD τ).loc main_arg0)) (m ((c : Thread nD τ).loc main_arg2)) := by
  dsimp only [Gen.V, Gen.hostOps0]
  after_results
  rfl

set_option maxHeartbeats 2000000 in
/-- The gathered destination rows likewise. -/
theorem staged_dst (c : Dev nD) :
    (V m c main_v18 : S300000x256.Idx → EReal)
      = Cert.ReferenceIdeal.Read.val_main_v17 (F := Ideal) (m ((c : Thread nD τ).loc main_arg0)) (m ((c : Thread nD τ).loc main_arg2)) := by
  dsimp only [Gen.V, Gen.hostOps0]
  after_results
  rfl

set_option maxHeartbeats 2000000 in
/-- The first block of first-layer weights: rows 0–255. -/
theorem staged_wa (c : Dev nD) :
    (V m c main_v20 : S256x256.Idx → EReal) = rowsFrom 0 (by omega) (m ((c : Thread nD τ).loc main_arg3)) := by
  have e : (V m c main_v20 : S256x256.Idx → EReal)
      = extractStridedSlice S256x256 ![0, 0] (truncf (F := Ideal) .bf16 (m ((c : Thread nD τ).loc main_arg3)) bitsLt_bf16_f32) slices_S768x256_S256x256_0_0 := by
    dsimp only [Gen.V, Gen.hostOps0]; after_results <;> rfl
  rw [e]
  funext i
  obtain ⟨j, k, rfl⟩ : ∃ (j k : Fin 256), i = ix2 j k := ⟨i 0, i 1, eq_ix2 i⟩
  exact slice2_axis0_eq 0 _ _ j k

set_option maxHeartbeats 2000000 in
/-- The second block: rows 256–511. -/
theorem staged_wb (c : Dev nD) :
    (V m c main_v21 : S256x256.Idx → EReal) = rowsFrom 256 (by omega) (m ((c : Thread nD τ).loc main_arg3)) := by
  have e : (V m c main_v21 : S256x256.Idx → EReal)
      = extractStridedSlice S256x256 ![256, 0] (truncf (F := Ideal) .bf16 (m ((c : Thread nD τ).loc main_arg3)) bitsLt_bf16_f32) slices_S768x256_S256x256_256_0 := by
    dsimp only [Gen.V, Gen.hostOps0]; after_results <;> rfl
  rw [e]
  funext i
  obtain ⟨j, k, rfl⟩ : ∃ (j k : Fin 256), i = ix2 j k := ⟨i 0, i 1, eq_ix2 i⟩
  exact slice2_axis0_eq 256 _ _ j k

set_option maxHeartbeats 2000000 in
/-- The third block: rows 512–767. -/
theorem staged_wc (c : Dev nD) :
    (V m c main_v22 : S256x256.Idx → EReal) = rowsFrom 512 (by omega) (m ((c : Thread nD τ).loc main_arg3)) := by
  have e : (V m c main_v22 : S256x256.Idx → EReal)
      = extractStridedSlice S256x256 ![512, 0] (truncf (F := Ideal) .bf16 (m ((c : Thread nD τ).loc main_arg3)) bitsLt_bf16_f32) slices_S768x256_S256x256_512_0 := by
    dsimp only [Gen.V, Gen.hostOps0]; after_results <;> rfl
  rw [e]
  funext i
  obtain ⟨j, k, rfl⟩ : ∃ (j k : Fin 256), i = ix2 j k := ⟨i 0, i 1, eq_ix2 i⟩
  exact slice2_axis0_eq 512 _ _ j k

set_option maxHeartbeats 2000000 in
/-- The second layer's weights are the argument. -/
theorem staged_w2 (c : Dev nD) :
    (V m c main_v23 : S256x256.Idx → EReal) = m ((c : Thread nD τ).loc main_arg5) := by
  have e : (V m c main_v23 : S256x256.Idx → EReal) = truncf (F := Ideal) .bf16 (m ((c : Thread nD τ).loc main_arg5)) bitsLt_bf16_f32 := by
    dsimp only [Gen.V, Gen.hostOps0]; after_results <;> rfl
  rw [e]
  rfl

set_option maxHeartbeats 2000000 in
/-- The first bias as one row. -/
theorem staged_b1 (c : Dev nD) :
    (V m c main_v24 : S1x256.Idx → EReal) = asRow (m ((c : Thread nD τ).loc main_arg4)) := by
  have e : (V m c main_v24 : S1x256.Idx → EReal) = shapeCast S1x256 (m ((c : Thread nD τ).loc main_arg4)) shapeCasts_S256_S1x256 := by
    dsimp only [Gen.V, Gen.hostOps0]; after_results <;> rfl
  rw [e]
  funext i
  obtain ⟨u, k, rfl⟩ : ∃ (u : Fin 1) (k : Fin 256), i = ix2 u k := ⟨i 0, i 1, eq_ix2 i⟩
  exact shapeCast_a_1a_apply _ _ u k

set_option maxHeartbeats 2000000 in
/-- The second bias as one row. -/
theorem staged_b2 (c : Dev nD) :
    (V m c main_v25 : S1x256.Idx → EReal) = asRow (m ((c : Thread nD τ).loc main_arg6)) := by
  have e : (V m c main_v25 : S1x256.Idx → EReal) = shapeCast S1x256 (m ((c : Thread nD τ).loc main_arg6)) shapeCasts_S256_S1x256 := by
    dsimp only [Gen.V, Gen.hostOps0]; after_results <;> rfl
  rw [e]
  funext i
  obtain ⟨u, k, rfl⟩ : ∃ (u : Fin 1) (k : Fin 256), i = ix2 u k := ⟨i 0, i 1, eq_ix2 i⟩
  exact shapeCast_a_1a_apply _ _ u k

end Cert.KernelIdeal.Staged

end
-- ==== Proof.KernelValue.lean ====
/-
  The kernel's run, read: its result array is the edge update of the gathered source and destination rows, the edge
  rows and the parameters.

  After the run the result array is the row-wise perceptron of the nine staged arrays (the blocks of the 150 grid
  points put together), and each staged array is a function of the arguments: the two gathered arrays (carried
  as the reference's stages for the same gathers), the edge rows, rows 0–255, 256–511, 512–767 of the first layer's
  weights, the second layer's weights, and the two biases as one-row matrices.  Substituting gives the edge update.
-/
import proofs.«105124_j45509473468801_2_alg».proof.Proof.Tiles
import proofs.«105124_j45509473468801_2_alg».proof.Proof.Windows

noncomputable section

namespace Cert.KernelIdeal.Edge

open Cert.KernelIdeal Cert.KernelIdeal.Gen Idealize.ShloMosaic Idealize.ShloMosaic.TcCoe Idealize.SL.Sem
open Cert.EdgeMlp

variable (m : (ℓ : Loc nD τ sig) → Buf (Elt Ideal) ℓ) (ρ : Dev nD → PrngReg)

/-- The edge update of the kernel's own arguments on core `c`. -/
def update (c : Dev nD) : Mat 300000 256 :=
  edgeMlp (n := 300000)
    (Cert.ReferenceIdeal.Read.val_main_v8 (F := Ideal) (m ((c : Thread nD τ).loc main_arg0)) (m ((c : Thread nD τ).loc main_arg2)))
    (Cert.ReferenceIdeal.Read.val_main_v17 (F := Ideal) (m ((c : Thread nD τ).loc main_arg0)) (m ((c : Thread nD τ).loc main_arg2)))
    (m ((c : Thread nD τ).loc main_arg1)) (m ((c : Thread nD τ).loc main_arg3)) (m ((c : Thread nD τ).loc main_arg4)) (m ((c : Thread nD τ).loc main_arg5)) (m ((c : Thread nD τ).loc main_arg6))

/-- The row-wise perceptron of the staged arrays is the edge update of the arguments. -/
theorem staged_eq (c : Dev nD) : Tiles.staged m c = update m c := by
  unfold Tiles.staged update edgeMlp
  rw [Staged.staged_src, Staged.staged_dst, V_main_arg1, Staged.staged_wa, Staged.staged_wb, Staged.staged_wc,
    Staged.staged_b1, Staged.staged_w2, Staged.staged_b2]

/-- Every weakly fair execution of the kernel's program terminates with the result array at the edge update of
    the arguments, the arguments unchanged. -/
theorem run : θ_run defs (onTc (τ := τ) (main (F := Ideal))) ⟨m, fun _ => 0, ρ⟩ fun r => ∀ c : Dev nD,
      r.2.mem ((c : Thread nD τ).loc main_v26) = update m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono
    (fun r h c => ⟨(h c).1.trans ((Tiles.result_eq m c).trans (staged_eq m c)), (h c).2⟩)
    (Cert.KernelIdeal.Value.run_blocks m ρ)

end Cert.KernelIdeal.Edge

end
-- ==== Proof.LibConcat3.lean ====
/-
  Three arrays laid end to end along one axis, the transpose of a matrix, and the regrouping of the leading two axes of
  a rank-3 array into one axis of rows, each read at an index written by coordinates.

  Along the joined axis a position below the first extent lies in the first piece; a position that is the first extent
  plus an offset below the second extent lies in the second piece at that offset; a position that is the first two
  extents plus an offset lies in the third piece.  A transposed matrix at (j, i) is the matrix at (i, j).  Row
  n * b + s of the regrouped array is row s of plane n, because both orders are row-major.
-/
import Idealize.ShloMosaic.Lib.Pipeline.Value
import Idealize.ShloMosaic.Lib.ValueIdx

namespace Cert.LibConcat3

open Idealize.ShloMosaic Idealize.ShloMosaic.ValueIdx

variable {α : Type}

/-! ## Three vectors end to end -/

/-- Three vectors laid end to end, read at a position below the first extent: the first vector there. -/
theorem concat3_vec_apply_fst {b₀ b₁ b₂ b : ℕ} (x₀ : (⟨1, ![b₀]⟩ : Shape).Idx → α) (x₁ : (⟨1, ![b₁]⟩ : Shape).Idx → α)
    (x₂ : (⟨1, ![b₂]⟩ : Shape).Idx → α)
    (h : Shape.Concatenates [(⟨1, ![b₀]⟩ : Shape), ⟨1, ![b₁]⟩, ⟨1, ![b₂]⟩] ⟨1, ![b]⟩ 0)
    (j : Fin b) (c : Fin b₀) (hj : j.val = c.val) :
    concatenate ⟨1, ![b]⟩ 0 [⟨⟨1, ![b₀]⟩, x₀⟩, ⟨⟨1, ![b₁]⟩, x₁⟩, ⟨⟨1, ![b₂]⟩, x₂⟩] h (ix1 j) = x₀ (ix1 c) :=
  concatenate_apply_piece (t := ⟨1, ![b]⟩) 0 [⟨⟨1, ![b₀]⟩, x₀⟩, ⟨⟨1, ![b₁]⟩, x₁⟩, ⟨⟨1, ![b₂]⟩, x₂⟩] h (ix1 j) 0 (by simp) _ x₀ rfl rfl 0 rfl (ix1 c)
    (fun d hd => by match d with | ⟨0, _⟩ => exact absurd rfl hd)
    (by show 0 + c.val = j.val; omega)

/-- Three vectors laid end to end, read at the first extent plus an offset: the second vector at the offset. -/
theorem concat3_vec_apply_snd {b₀ b₁ b₂ b : ℕ} (x₀ : (⟨1, ![b₀]⟩ : Shape).Idx → α) (x₁ : (⟨1, ![b₁]⟩ : Shape).Idx → α)
    (x₂ : (⟨1, ![b₂]⟩ : Shape).Idx → α)
    (h : Shape.Concatenates [(⟨1, ![b₀]⟩ : Shape), ⟨1, ![b₁]⟩, ⟨1, ![b₂]⟩] ⟨1, ![b]⟩ 0)
    (j : Fin b) (c : Fin b₁) (hj : j.val = b₀ + c.val) :
    concatenate ⟨1, ![b]⟩ 0 [⟨⟨1, ![b₀]⟩, x₀⟩, ⟨⟨1, ![b₁]⟩, x₁⟩, ⟨⟨1, ![b₂]⟩, x₂⟩] h (ix1 j) = x₁ (ix1 c) :=
  concatenate_apply_piece (t := ⟨1, ![b]⟩) 0 [⟨⟨1, ![b₀]⟩, x₀⟩, ⟨⟨1, ![b₁]⟩, x₁⟩, ⟨⟨1, ![b₂]⟩, x₂⟩] h (ix1 j) 1 (by simp) _ x₁ rfl rfl b₀ (Nat.add_zero b₀) (ix1 c)
    (fun d hd => by match d with | ⟨0, _⟩ => exact absurd rfl hd)
    (by show b₀ + c.val = j.val; omega)

/-- Three vectors laid end to end, read at the first two extents plus an offset: the third vector at the offset. -/
theorem concat3_vec_apply_thd {b₀ b₁ b₂ b : ℕ} (x₀ : (⟨1, ![b₀]⟩ : Shape).Idx → α) (x₁ : (⟨1, ![b₁]⟩ : Shape).Idx → α)
    (x₂ : (⟨1, ![b₂]⟩ : Shape).Idx → α)
    (h : Shape.Concatenates [(⟨1, ![b₀]⟩ : Shape), ⟨1, ![b₁]⟩, ⟨1, ![b₂]⟩] ⟨1, ![b]⟩ 0)
    (j : Fin b) (c : Fin b₂) (hj : j.val = b₀ + b₁ + c.val) :
    concatenate ⟨1, ![b]⟩ 0 [⟨⟨1, ![b₀]⟩, x₀⟩, ⟨⟨1, ![b₁]⟩, x₁⟩, ⟨⟨1, ![b₂]⟩, x₂⟩] h (ix1 j) = x₂ (ix1 c) :=
  concatenate_apply_piece (t := ⟨1, ![b]⟩) 0 [⟨⟨1, ![b₀]⟩, x₀⟩, ⟨⟨1, ![b₁]⟩, x₁⟩, ⟨⟨1, ![b₂]⟩, x₂⟩] h (ix1 j) 2 (by simp) _ x₂ rfl rfl (b₀ + (b₁ + 0)) rfl (ix1 c)
    (fun d hd => by match d with | ⟨0, _⟩ => exact absurd rfl hd)
    (by show b₀ + (b₁ + 0) + c.val = j.val; omega)

/-! ## Three matrices side by side -/

/-- Three matrices of one height laid side by side, read at a column below the first width: the first matrix there. -/
theorem concat3_cols_apply_fst {a b₀ b₁ b₂ b : ℕ} (x₀ : (⟨2, ![a, b₀]⟩ : Shape).Idx → α)
    (x₁ : (⟨2, ![a, b₁]⟩ : Shape).Idx → α) (x₂ : (⟨2, ![a, b₂]⟩ : Shape).Idx → α)
    (h : Shape.Concatenates [(⟨2, ![a, b₀]⟩ : Shape), ⟨2, ![a, b₁]⟩, ⟨2, ![a, b₂]⟩] ⟨2, ![a, b]⟩ 1)
    (r : Fin a) (j : Fin b) (c : Fin b₀) (hj : j.val = c.val) :
    concatenate ⟨2, ![a, b]⟩ 1 [⟨⟨2, ![a, b₀]⟩, x₀⟩, ⟨⟨2, ![a, b₁]⟩, x₁⟩, ⟨⟨2, ![a, b₂]⟩, x₂⟩] h (ix2 r j)
      = x₀ (ix2 r c) :=
  concatenate_apply_piece (t := ⟨2, ![a, b]⟩) 1 [⟨⟨2, ![a, b₀]⟩, x₀⟩, ⟨⟨2, ![a, b₁]⟩, x₁⟩, ⟨⟨2, ![a, b₂]⟩, x₂⟩] h (ix2 r j) 0 (by simp) _ x₀ rfl rfl 0 rfl (ix2 r c)
    (fun d hd => by match d with | ⟨0, _⟩ => rfl | ⟨1, _⟩ => exact absurd rfl hd)
    (by show 0 + c.val = j.val; omega)

/-- Three matrices of one height laid side by side, read at the first width plus an offset: the second matrix at the
    offset. -/
theorem concat3_cols_apply_snd {a b₀ b₁ b₂ b : ℕ} (x₀ : (⟨2, ![a, b₀]⟩ : Shape).Idx → α)
    (x₁ : (⟨2, ![a, b₁]⟩ : Shape).Idx → α) (x₂ : (⟨2, ![a, b₂]⟩ : Shape).Idx → α)
    (h : Shape.Concatenates [(⟨2, ![a, b₀]⟩ : Shape), ⟨2, ![a, b₁]⟩, ⟨2, ![a, b₂]⟩] ⟨2, ![a, b]⟩ 1)
    (r : Fin a) (j : Fin b) (c : Fin b₁) (hj : j.val = b₀ + c.val) :
    concatenate ⟨2, ![a, b]⟩ 1 [⟨⟨2, ![a, b₀]⟩, x₀⟩, ⟨⟨2, ![a, b₁]⟩, x₁⟩, ⟨⟨2, ![a, b₂]⟩, x₂⟩] h (ix2 r j)
      = x₁ (ix2 r c) :=
  concatenate_apply_piece (t := ⟨2, ![a, b]⟩) 1 [⟨⟨2, ![a, b₀]⟩, x₀⟩, ⟨⟨2, ![a, b₁]⟩, x₁⟩, ⟨⟨2, ![a, b₂]⟩, x₂⟩] h (ix2 r j) 1 (by simp) _ x₁ rfl rfl b₀ (Nat.add_zero b₀) (ix2 r c)
    (fun d hd => by match d with | ⟨0, _⟩ => rfl | ⟨1, _⟩ => exact absurd rfl hd)
    (by show b₀ + c.val = j.val; omega)

/-- Three matrices of one height laid side by side, read at the first two widths plus an offset: the third matrix at
    the offset. -/
theorem concat3_cols_apply_thd {a b₀ b₁ b₂ b : ℕ} (x₀ : (⟨2, ![a, b₀]⟩ : Shape).Idx → α)
    (x₁ : (⟨2, ![a, b₁]⟩ : Shape).Idx → α) (x₂ : (⟨2, ![a, b₂]⟩ : Shape).Idx → α)
    (h : Shape.Concatenates [(⟨2, ![a, b₀]⟩ : Shape), ⟨2, ![a, b₁]⟩, ⟨2, ![a, b₂]⟩] ⟨2, ![a, b]⟩ 1)
    (r : Fin a) (j : Fin b) (c : Fin b₂) (hj : j.val = b₀ + b₁ + c.val) :
    concatenate ⟨2, ![a, b]⟩ 1 [⟨⟨2, ![a, b₀]⟩, x₀⟩, ⟨⟨2, ![a, b₁]⟩, x₁⟩, ⟨⟨2, ![a, b₂]⟩, x₂⟩] h (ix2 r j)
      = x₂ (ix2 r c) :=
  concatenate_apply_piece (t := ⟨2, ![a, b]⟩) 1 [⟨⟨2, ![a, b₀]⟩, x₀⟩, ⟨⟨2, ![a, b₁]⟩, x₁⟩, ⟨⟨2, ![a, b₂]⟩, x₂⟩] h (ix2 r j) 2 (by simp) _ x₂ rfl rfl (b₀ + (b₁ + 0)) rfl (ix2 r c)
    (fun d hd => by match d with | ⟨0, _⟩ => rfl | ⟨1, _⟩ => exact absurd rfl hd)
    (by show b₀ + (b₁ + 0) + c.val = j.val; omega)

/-! ## The transpose of a matrix -/

/-- The transpose of an `[a, b]` matrix reads, at (j, i), the matrix at (i, j). -/
theorem transpose_10_apply {a b : ℕ} (x : (⟨2, ![a, b]⟩ : Shape).Idx → α)
    (h : (⟨2, ![a, b]⟩ : Shape).Transposes [1, 0] ⟨2, ![b, a]⟩) (i : Fin a) (j : Fin b) :
    transpose ⟨2, ![b, a]⟩ [1, 0] x h (ix2 j i) = x (ix2 i j) :=
  transpose_apply [1, 0] x h (ix2 j i) (ix2 i j) fun d => by
    match d with
    | ⟨0, _⟩ => rfl
    | ⟨1, _⟩ => rfl

/-! ## Planes of rows as one run of rows, and back -/

/-- An `[a, b, c]` array regrouped as `[m, c]` reads, at row `n * b + s`, row `s` of plane `n`. -/
theorem shapeCast_planes_rows_apply {a b c m : ℕ} (x : (⟨3, ![a, b, c]⟩ : Shape).Idx → α)
    (h : (⟨3, ![a, b, c]⟩ : Shape).ShapeCasts ⟨2, ![m, c]⟩) (n : Fin a) (s : Fin b) (e : Fin c) (row : Fin m)
    (hrow : row.val = n.val * b + s.val) :
    shapeCast ⟨2, ![m, c]⟩ x h (ix2 row e) = x (ix3 n s e) :=
  shapeCast_apply x h _ _ (by
    rw [Shape.rowMajor_val_three, Shape.rowMajor_val_two]
    show (n.val * b + s.val) * c + e.val = row.val * c + e.val
    rw [hrow])

/-- An `[m, c]` array regrouped as `[a, b, c]` reads, at row `s` of plane `n`, row `n * b + s`. -/
theorem shapeCast_rows_planes_apply {a b c m : ℕ} (y : (⟨2, ![m, c]⟩ : Shape).Idx → α)
    (h : (⟨2, ![m, c]⟩ : Shape).ShapeCasts ⟨3, ![a, b, c]⟩) (n : Fin a) (s : Fin b) (e : Fin c) (row : Fin m)
    (hrow : row.val = n.val * b + s.val) :
    shapeCast ⟨3, ![a, b, c]⟩ y h (ix3 n s e) = y (ix2 row e) :=
  shapeCast_apply y h _ _ (by
    rw [Shape.rowMajor_val_three, Shape.rowMajor_val_two]
    show row.val * c + e.val = (n.val * b + s.val) * c + e.val
    rw [hrow])

end Cert.LibConcat3
-- ==== Proof.RefValue.lean ====
/-
  The reference's result, read entry by entry, is the edge update of its own two gathered arrays.

  The reference lays the gathered source rows, the gathered destination rows and the edge rows side by side into one
  array of width 768 and multiplies it by the whole first-layer weight matrix.  Column `j` of the joined array is
  column `j` of the first piece for `j` below 256, column `j − 256` of the second below 512 and column `j − 512` of the
  third after that, so the product's sum over 768 columns is the three sums over 256 columns of the three pieces
  against the three blocks of 256 weight rows (`EdgeMlp.cat_sum`): the hidden layer in the form the kernel computes
  it (`hidden_eq`).  The bias, the rectifier, the second product and its bias are then the same operations entry by
  entry (`result_eq`).  The two gathers are left as they are.
-/
import proofs.«105124_j45509473468801_2_alg».proof.Proof.Gen.ReferenceIdeal.Read
import proofs.«105124_j45509473468801_2_alg».proof.Proof.EdgeMlp
import proofs.«105124_j45509473468801_2_alg».proof.Proof.LibConcat3
import Idealize.ShloMosaic.Lib.ValueIdx

noncomputable section

open scoped BigOperators

namespace Cert.ReferenceIdeal.Edge

open Cert.ReferenceIdeal Cert.ReferenceIdeal.Gen Cert.ReferenceIdeal.Read Idealize.ShloMosaic Idealize.ShloMosaic.ValueIdx
open Cert.EdgeMlp Cert.LibConcat3

/-! ## The stages' index maps at coordinates -/

theorem lidx19 (p : Fin 300000) (k : Fin 256) (j : Fin 768) : lidx_main_v19 (ix2 p k) j = ix2 p j :=
  funext fun a => Fin.ext (by match a with | ⟨0, _⟩ => rfl | ⟨1, _⟩ => rfl)

theorem ridx19 (p : Fin 300000) (k : Fin 256) (j : Fin 768) : ridx_main_v19 (ix2 p k) j = ix2 j k :=
  funext fun a => Fin.ext (by match a with | ⟨0, _⟩ => rfl | ⟨1, _⟩ => rfl)

theorem lidx24 (p : Fin 300000) (q k : Fin 256) : lidx_main_v24 (ix2 p q) k = ix2 p k :=
  funext fun a => Fin.ext (by match a with | ⟨0, _⟩ => rfl | ⟨1, _⟩ => rfl)

theorem ridx24 (p : Fin 300000) (q k : Fin 256) : ridx_main_v24 (ix2 p q) k = ix2 k q :=
  funext fun a => Fin.ext (by match a with | ⟨0, _⟩ => rfl | ⟨1, _⟩ => rfl)

theorem bias1_idx (p : Fin 300000) (k : Fin 256) : idx_main_v20 (idx_main_v21 (ix2 p k)) = ix1 k :=
  funext fun a => Fin.ext (by match a with | ⟨0, _⟩ => rfl)

theorem bias2_idx (p : Fin 300000) (q : Fin 256) : idx_main_v25 (idx_main_v26 (ix2 p q)) = ix1 q :=
  funext fun a => Fin.ext (by match a with | ⟨0, _⟩ => rfl)

variable (x0 : (⟨S50000x256, .f32⟩ : BufTy).Contents (Elt Ideal)) (x1 : (⟨S300000x256, .f32⟩ : BufTy).Contents (Elt Ideal))
  (x2 : (⟨S2x300000, .i32⟩ : BufTy).Contents (Elt Ideal)) (x3 : (⟨S768x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal))

/-! ## The hidden layer -/

/-- The reference's hidden layer before the rectifier, at edge `p` and unit `k`, is the three-block form. -/
theorem hidden_eq (p : Fin 300000) (k : Fin 256) :
    val_main_v22 (F := Ideal) x0 x1 x2 x3 x4 (ix2 p k)
      = hid (val_main_v8 (F := Ideal) x0 x2) (val_main_v17 (F := Ideal) x0 x2) x1 (rowsFrom 0 (by omega) x3)
          (rowsFrom 256 (by omega) x3) (rowsFrom 512 (by omega) x3) (asRow x4) p k := by
  rw [val_main_v22_apply]
  unfold hid
  refine congrArg₂ (· + ·) ?_ ?_
  · rw [val_main_v19_apply]
    simp only [lidx19, ridx19]
    exact cat_sum (val_main_v8 (F := Ideal) x0 x2) (val_main_v17 (F := Ideal) x0 x2) x1 (val_main_v18 (F := Ideal) x0 x1 x2) x3 p k
      (fun j => concat3_cols_apply_fst _ _ _ _ p _ j (Nat.zero_add _))
      (fun j => concat3_cols_apply_snd _ _ _ _ p _ j rfl)
      (fun j => concat3_cols_apply_thd _ _ _ _ p _ j rfl)
  · rw [val_main_v21_apply, val_main_v20_apply]
    exact congrArg x4 (bias1_idx p k)

/-! ## The result -/

/-- The reference's result array is the edge update of its gathered source and destination rows, the edge rows and
    the parameters. -/
theorem result_eq :
    val_main_v27 (F := Ideal) x0 x1 x2 x3 x4 x5 x6
      = edgeMlp (val_main_v8 (F := Ideal) x0 x2) (val_main_v17 (F := Ideal) x0 x2) x1 x3 x4 x5 x6 := by
  funext i
  obtain ⟨p, q, rfl⟩ : ∃ (p : Fin 300000) (q : Fin 256), i = ix2 p q := ⟨i 0, i 1, eq_ix2 i⟩
  rw [val_main_v27_apply, val_main_v24_apply, val_main_v26_apply, val_main_v25_apply]
  unfold edgeMlp
  rw [rowMlp_apply]
  unfold outAt
  refine congrArg₂ (· + ·) (Finset.sum_congr rfl fun k _ => ?_) (congrArg x6 (bias2_idx p q))
  rw [lidx24, ridx24, val_main_v23_apply, hidden_eq, val_main_call0_v0_apply]
  rfl

end Cert.ReferenceIdeal.Edge

end
-- ==== Proof.lean ====
/-
  The kernel and its reference compute the same edge update.

  Both programs take a node table, edge features, a 2 × 300000 array of node numbers and the parameters of a
  perceptron 768 → 256 → 256 with a rectified hidden layer.  Both turn negative node numbers into their positive
  equivalents and gather, for each edge, its source node's and its destination node's row.  The reference joins the
  two gathered rows and the edge's own row into one row of width 768 and applies the perceptron.  The kernel applies
  it to 2000 edges per grid point and keeps the three rows apart: it multiplies each by its own block of 256 rows of
  the first layer's weights and adds the three products.

  Over the extended reals a change of float format is the identity, so the only difference left is the order of
  the first layer's sum: a sum over 768 columns against three sums over 256 columns added up, which are equal in
  any commutative monoid (no term needs to be finite, so the precondition is not used).  The two gathers are the same
  operations of the same arguments on both sides and are never opened.

  The three frames are the generated ones (the reference's is its generated run with the result dropped); the
  idealization rewrote no operation, so there is nothing to preserve.
-/
import proofs.«105124_j45509473468801_2_alg».proof.Defs
import proofs.«105124_j45509473468801_2_alg».proof.Proof.Gen.Kernel
import proofs.«105124_j45509473468801_2_alg».proof.Proof.Gen.Kernel.Skeleton
import proofs.«105124_j45509473468801_2_alg».proof.Proof.Gen.Kernel.Launch
import proofs.«105124_j45509473468801_2_alg».proof.Proof.Gen.Kernel.Points
import proofs.«105124_j45509473468801_2_alg».proof.Proof.Gen.Kernel.Frame
import proofs.«105124_j45509473468801_2_alg».proof.Proof.Gen.KernelIdeal
import proofs.«105124_j45509473468801_2_alg».proof.Proof.Gen.KernelIdeal.Skeleton
import proofs.«105124_j45509473468801_2_alg».proof.Proof.Gen.KernelIdeal.Launch
import proofs.«105124_j45509473468801_2_alg».proof.Proof.Gen.KernelIdeal.Points
import proofs.«105124_j45509473468801_2_alg».proof.Proof.Gen.KernelIdeal.Frame
import proofs.«105124_j45509473468801_2_alg».proof.Proof.Gen.ReferenceIdeal
import proofs.«105124_j45509473468801_2_alg».proof.Proof.Gen.Pre_finite_inputs
import proofs.«105124_j45509473468801_2_alg».proof.Proof.Gen.KernelIdeal.Value
import proofs.«105124_j45509473468801_2_alg».proof.Proof.Gen.ReferenceIdeal.Run
import proofs.«105124_j45509473468801_2_alg».proof.Proof.Gen.ReferenceIdeal.Read
import proofs.«105124_j45509473468801_2_alg».proof.Proof.KernelValue
import proofs.«105124_j45509473468801_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the edge update of those arguments: the kernel by
    its blocks put together, the reference by its stages read entry by entry. -/
theorem algebraic : Cert.algebraic_KernelIdeal_ReferenceIdeal := by
  intro m ρ m' ρ' _ hagree
  refine ⟨fun c => Cert.KernelIdeal.Edge.update m c, Cert.KernelIdeal.Edge.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v27_eq, Cert.ReferenceIdeal.Edge.result_eq, h0, h1, h2, h3, h4, h5, h6]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
